-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1x4096 : Shape := ⟨2, ![1, 4096]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096 .f32) (main_arg3 : FVec F S1x4096 .f32) (main_arg4 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_v13 main_v16
-- ==== Kernel.lean ====
abbrev S4096x1024 : Shape := ⟨2, ![4096, 1024]⟩
abbrev S4096 : Shape := ⟨1, ![4096]⟩
abbrev S1x4096 : Shape := ⟨2, ![1, 4096]⟩
abbrev S1 : Shape := ⟨1, ![1]⟩
abbrev S_ : Shape := ⟨0, ![]⟩
abbrev S4096x1 : Shape := ⟨2, ![4096, 1]⟩
abbrev S2048x1024 : Shape := ⟨2, ![2048, 1024]⟩
abbrev S512x1024 : Shape := ⟨2, ![512, 1024]⟩
abbrev S1x512 : Shape := ⟨2, ![1, 512]⟩
abbrev S2048x1 : Shape := ⟨2, ![2048, 1]⟩
abbrev S2048 : Shape := ⟨1, ![2048]⟩
abbrev S256x1024 : Shape := ⟨2, ![256, 1024]⟩
abbrev S1024x256 : Shape := ⟨2, ![1024, 256]⟩
abbrev S2048x256 : Shape := ⟨2, ![2048, 256]⟩
abbrev S1x256 : Shape := ⟨2, ![1, 256]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S1, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S4096x1024, .bf16⟩
  | .hbm, ⟨10, _⟩ => ⟨S1x4096, .f32⟩
  | .hbm, ⟨11, _⟩ => ⟨S4096x1, .f32⟩
  | .hbm, ⟨12, _⟩ => ⟨S1x1, .f32⟩
  | .hbm, ⟨13, _⟩ => ⟨S4096x1, .f32⟩
  | .hbm, ⟨14, _⟩ => ⟨S4096x1, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v78 : BitVec 1 := Scalar.cmpi .eq arg1 c7_i32
  let v79 : BitVec 32 := Scalar.extui v78
  let c0_i32_30 : BitVec 32 := 0#32
  let v80 : BitVec 1 := Scalar.cmpi .ne v79 c0_i32_30
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x1024_S4096_d1 : S4096x1024.ReducesTo [1] S4096
  h_S_ : 0 < S_.numel
  shapeCasts_S4096_S1x4096 : S4096.ShapeCasts S1x4096
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S512x1024_o0_0_S256x1024 : S512x1024.Slices ![0, 0] S256x1024
  transposes_S256x1024_p1_0_S1024x256 : S256x1024.Transposes [1, 0] S1024x256
  slices_S1x512_o0_0_S1x256 : S1x512.Slices ![0, 0] S1x256
  broadcasts_S2048x1_S2048x256 : S2048x1.Broadcasts S2048x256
  broadcasts_S1x256_S2048x256 : S1x256.Broadcasts S2048x256
  reduces_S2048x256_S2048 : S2048x256.Reduces [1] S2048
  slices_S512x1024_o256_0_S256x1024 : S512x1024.Slices ![256, 0] S256x1024
  slices_S1x512_o0_256_S1x256 : S1x512.Slices ![0, 256] S1x256
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1x4096 : Shape := ⟨2, ![1, 4096]⟩
abbrev S1 : Shape := ⟨1, ![1]⟩
abbrev S_ : Shape := ⟨0, ![]⟩
abbrev S4096x1 : Shape := ⟨2, ![4096, 1]⟩
abbrev S4096x4096 : Shape := ⟨2, ![4096, 4096]⟩
abbrev S1024x4096 : Shape := ⟨2, ![1024, 4096]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S1, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S1024x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S4096x1, .f32⟩
  | .hbm, ⟨41, _⟩ => ⟨S1x1, .f32⟩
  | .hbm, ⟨42, _⟩ => ⟨S4096x1, .f32⟩
  | .hbm, ⟨43, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v22 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x1024_S1024x4096_S4096x4096_1_0_0_1_n_n_wf : DotDims.WF S4096x1024 S1024x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.Spec.lean ====
/-
  The radial-basis layer as one function of its arguments, entry by entry, over the extended reals.

  For a row r of the data and a centre c:  d2 = (|x_r|^2 + |c_c|^2) - 2 <x_r, c_c>,  e = exp(-beta_c * sqrt(max(d2, 0))),
  the hidden unit is e with an infinite e replaced by zero, and the output at row r is the sum over the centres of
  hidden(r, c) * W_c, plus the bias. The sum over the centres can be taken in consecutive blocks of 512 centres,
  each block in two halves of 256: addition of extended reals is associative and commutative, so the blocked sum is
  the whole sum (psum_step, psum_all).

  Arrays are read through accessors that are total on the naturals (zero outside the array), so that a row or a
  centre given as "block offset + position in the block" needs no bound proof inside the formulas.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- A matrix read at natural coordinates: its entry inside, zero outside. -/
def ent2 {n0 n1 : ℕ} (A : (⟨2, ![n0, n1]⟩ : Shape).Idx → EReal) (r d : ℕ) : EReal :=
  if h : r < n0 ∧ d < n1 then A (ix2 ⟨r, h.1⟩ ⟨d, h.2⟩) else 0

theorem ent2_ix2 {n0 n1 : ℕ} (A : (⟨2, ![n0, n1]⟩ : Shape).Idx → EReal) (a : Fin n0) (b : Fin n1) :
    ent2 A a.val b.val = A (ix2 a b) := by
  unfold ent2
  rw [dif_pos ⟨a.isLt, b.isLt⟩]

theorem ent2_idx {n0 n1 : ℕ} (A : (⟨2, ![n0, n1]⟩ : Shape).Idx → EReal) (i : (⟨2, ![n0, n1]⟩ : Shape).Idx) :
    A i = ent2 A (i 0).val (i 1).val := by
  exact (congrArg A (eq_ix2 i)).trans (ent2_ix2 A (i 0) (i 1)).symm

/-- A vector read at a natural coordinate: its entry inside, zero outside. -/
def ent1 {n : ℕ} (A : (⟨1, ![n]⟩ : Shape).Idx → EReal) (r : ℕ) : EReal :=
  if h : r < n then A (ix1 ⟨r, h⟩) else 0

theorem ent1_ix1 {n : ℕ} (A : (⟨1, ![n]⟩ : Shape).Idx → EReal) (a : Fin n) : ent1 A a.val = A (ix1 a) := by
  unfold ent1
  rw [dif_pos a.isLt]

/-- exp(-beta * sqrt(max((x2 + c2) - 2 * dot, 0))): the unit's activation before infinities are masked. -/
def expo (x2 c2 dt β : EReal) : EReal :=
  Ideal.exp (-β * Ideal.sqrt (max (x2 + c2 - Ideal.ofBits .f32 0x40000000#32 * dt) (Ideal.ofBits .f32 0x00000000#32)))

/-- The hidden unit: the activation, with an infinite value (|e| = +inf) replaced by zero. -/
def hid (x2 c2 dt β : EReal) : EReal :=
  Scalar.select (Ideal.cmp .oeq (max (expo x2 c2 dt β) (-(expo x2 c2 dt β))) (Ideal.ofBits .f32 0x7F800000#32))
    (Ideal.ofBits .f32 0x00000000#32) (expo x2 c2 dt β)

section
variable (X C : ℕ → ℕ → EReal) (B Wt : ℕ → EReal)

/-- The squared norm of row r. -/
def sqn (X : ℕ → ℕ → EReal) (r : ℕ) : EReal := ∑ d : Fin 1024, X r d.val * X r d.val

/-- The inner product of row r of the data with centre c. -/
def dotp (r c : ℕ) : EReal := ∑ d : Fin 1024, X r d.val * C c d.val

/-- Centre c's contribution to output row r. -/
def term (r c : ℕ) : EReal := hid (sqn X r) (sqn C c) (dotp X C r c) (B c) * Wt c

/-- The contributions of the first n centres to output row r. -/
def psum (r n : ℕ) : EReal := ∑ c ∈ Finset.range n, term X C B Wt r c

theorem psum_zero (r : ℕ) : psum X C B Wt r 0 = 0 := by
  unfold psum
  rw [Finset.range_zero, Finset.sum_empty]

/-- One block of 512 centres, added as two halves of 256 onto a zero, extends the partial sum by that block. -/
theorem psum_step (r k : ℕ) :
    psum X C B Wt r (512 * (k + 1))
      = psum X C B Wt r (512 * k)
        + ((0 + ∑ j : Fin 256, term X C B Wt r (512 * k + j.val))
            + ∑ j : Fin 256, term X C B Wt r (512 * k + (256 + j.val))) := by
  unfold psum
  rw [show 512 * (k + 1) = 512 * k + 256 + 256 by omega, Finset.sum_range_add, Finset.sum_range_add, zero_add, add_assoc,
    ← Fin.sum_univ_eq_sum_range (fun j => term X C B Wt r (512 * k + j)) 256,
    ← Fin.sum_univ_eq_sum_range (fun j => term X C B Wt r (512 * k + 256 + j)) 256]
  simp only [add_assoc]

/-- All 4096 centres: the sum over the centres as a finite type. -/
theorem psum_all (r : ℕ) : psum X C B Wt r 4096 = ∑ c : Fin 4096, term X C B Wt r c.val := by
  unfold psum
  exact (Fin.sum_univ_eq_sum_range (fun c => term X C B Wt r c) 4096).symm

end

end Cert.Rbf

end
-- ==== Proof.RefSide.lean ====
/-
  The reference program's result, entry by entry: at output row r it is the sum over all 4096 centres of the
  centre's contribution (Spec: term), plus the bias. Each stage of the program is read at an index through the
  generated read-at-an-index lemmas; the two row reductions start from the zero word, which is the real zero.
-/
import proofs.«149360_j11081015623693_2_alg».proof.Proof.Gen.ReferenceIdeal.Read
import proofs.«149360_j11081015623693_2_alg».proof.Proof.Spec
import Idealize.ShloMosaic.Lib.ValueIdx
import Idealize.ShloMosaic.PureOps.Ideal.Laws

noncomputable section

open scoped BigOperators

namespace Cert.Rbf.Ref

open Idealize.ShloMosaic Idealize.ShloMosaic.ValueIdx Cert.ReferenceIdeal Cert.ReferenceIdeal.Read Cert.Rbf

/-- An entry of a matrix whose index has natural coordinates a, b is the accessor at (a, b). -/
theorem ent2_of {n0 n1 : ℕ} (A : (⟨2, ![n0, n1]⟩ : Shape).Idx → EReal) (J : (⟨2, ![n0, n1]⟩ : Shape).Idx) (a b : ℕ)
    (h0 : (J 0).val = a) (h1 : (J 1).val = b) : A J = ent2 A a b := by
  subst h0 h1; exact ent2_idx A J

theorem ent1_of {n : ℕ} (A : (⟨1, ![n]⟩ : Shape).Idx → EReal) (J : (⟨1, ![n]⟩ : Shape).Idx) (a : ℕ)
    (h0 : (J 0).val = a) : A J = ent1 A a := by
  subst h0
  exact (congrArg A (eq_ix1 J)).trans (ent1_ix1 A (J 0)).symm

variable (x0 x1 : S4096x1024.Idx → EReal) (x2 : S4096.Idx → EReal) (x3 : S1x4096.Idx → EReal) (x4 : S1.Idx → EReal)

/-- The squared norm of a data row, broadcast along the centres. -/
theorem rowNorm_apply (j : S4096x4096.Idx) :
    val_main_v6 (F := Ideal) x0 j = sqn (ent2 x0) (j 0).val := by
  rw [val_main_v6_apply, val_main_v2_apply, val_main_v1_apply, val_main_cst_apply, Ideal.ofBits_def, Ideal.ofBits_zero_f32, zero_add]
  unfold sqn
  refine Finset.sum_congr rfl fun d _ => ?_
  rw [val_main_v0_apply, Ideal.mulf_def, ent2_of x0 _ (j 0).val d.val rfl rfl]

/-- The squared norm of a centre, broadcast along the data rows. -/
theorem centreNorm_apply (j : S4096x4096.Idx) :
    val_main_v7 (F := Ideal) x1 j = sqn (ent2 x1) (j 1).val := by
  rw [val_main_v7_apply, val_main_v5_apply, val_main_v4_apply, val_main_cst_0_apply, Ideal.ofBits_def, Ideal.ofBits_zero_f32, zero_add]
  unfold sqn
  refine Finset.sum_congr rfl fun d _ => ?_
  rw [val_main_v3_apply, Ideal.mulf_def, ent2_of x1 _ (j 1).val d.val rfl rfl]

/-- The matrix of inner products of data rows with centres. -/
theorem inner_apply (j : S4096x4096.Idx) :
    val_main_v10 (F := Ideal) x0 x1 j = dotp (ent2 x0) (ent2 x1) (j 0).val (j 1).val := by
  rw [val_main_v10_apply]
  unfold dotp
  refine Finset.sum_congr rfl fun d _ => ?_
  rw [val_main_v9_apply, ent2_of x0 _ (j 0).val d.val rfl rfl, ent2_of x1 _ (j 1).val d.val rfl rfl]

/-- The activation exp(-beta * distance) at (row, centre). -/
theorem activation_apply (j : S4096x4096.Idx) :
    val_main_v21 (F := Ideal) x0 x1 x2 j
      = expo (sqn (ent2 x0) (j 0).val) (sqn (ent2 x1) (j 1).val) (dotp (ent2 x0) (ent2 x1) (j 0).val (j 1).val) (ent1 x2 (j 1).val) := by
  rw [val_main_v21_apply, val_main_v20_apply, val_main_v19_apply, val_main_v18_apply, val_main_v17_apply, val_main_v16_apply,
    val_main_v15_apply, val_main_v14_apply, val_main_cst_2_apply, val_main_v13_apply, val_main_v12_apply, val_main_v11_apply,
    val_main_cst_1_apply, val_main_v8_apply, rowNorm_apply, centreNorm_apply, inner_apply,
    ent1_of x2 _ (j 1).val rfl]
  rfl

/-- The hidden unit at (row, centre): the activation with infinities masked to zero. -/
theorem hidden_apply (j : S4096x4096.Idx) :
    val_main_v23 (F := Ideal) x0 x1 x2 j
      = hid (sqn (ent2 x0) (j 0).val) (sqn (ent2 x1) (j 1).val) (dotp (ent2 x0) (ent2 x1) (j 0).val (j 1).val) (ent1 x2 (j 1).val) := by
  rw [val_main_v23_apply, val_main_v22_apply, val_main_call0_v0_apply, val_main_call0_v1_apply, val_main_call0_cst_apply,
    val_main_call1_v1_apply, val_main_call1_v0_apply, val_main_cst_3_apply, activation_apply]
  rfl

/-- The whole reference result as one function of the arguments. -/
def out (x0 x1 : S4096x1024.Idx → EReal) (x2 : S4096.Idx → EReal) (x3 : S1x4096.Idx → EReal) (x4 : S1.Idx → EReal) :
    S4096x1.Idx → EReal :=
  fun i => psum (ent2 x0) (ent2 x1) (ent1 x2) (fun c => ent2 x3 0 c) (i 0).val 4096 + ent1 x4 0

theorem result_apply (i : S4096x1.Idx) :
    val_main_v28 (F := Ideal) x0 x1 x2 x3 x4 i = out x0 x1 x2 x3 x4 i := by
  rw [val_main_v28_apply, val_main_v25_apply, val_main_v27_apply, val_main_v26_apply, Ideal.addf_def]
  unfold out
  rw [psum_all, ent1_of x4 _ 0 rfl]
  refine congrArg (· + _) (Finset.sum_congr rfl fun k _ => ?_)
  rw [hidden_apply, val_main_v24_apply, ent2_of x3 _ 0 k.val (by show (i 1).val = 0; have := idx2_lt1 i; omega) rfl]
  rfl

theorem result_eq : val_main_v28 (F := Ideal) x0 x1 x2 x3 x4 = out x0 x1 x2 x3 x4 :=
  funext (result_apply x0 x1 x2 x3 x4)

end Cert.Rbf.Ref

end
-- ==== Proof.Pieces.lean ====
/-
  What one run of the kernel body leaves in the buffers it carries from one grid point to the next, as values.

  The body keeps three scratch buffers: the accumulator (one partial output per data row), the squared norms of the
  data block's rows, and a copy of the data block. At the first step of a data block (case A) it resets the
  accumulator to zero, computes the norms and the copy from the data block, and then accumulates; at every later step
  (cases B and C) it accumulates over what the step before left; at the last step (case C) it also copies the
  accumulator to the output block. Each buffer is written by whole-buffer stores, so what it ends with is the last
  store's value, a pure function (step) of the step's input blocks and of what the buffers held.
-/
import proofs.«149360_j11081015623693_2_alg».proof.Proof.Gen.KernelIdeal.Frame
import Idealize.ShloMosaic.Lib.Pipeline.Value
import Idealize.ShloMosaic.Lib.Tactic

set_option maxRecDepth 16384

noncomputable section

namespace Cert.Rbf.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg2 : Memref sig .tc .vmem S2048x1024 .f32) (harg2 : arg2.IsWhole) (arg3 : Memref sig .tc .vmem S512x1024 .bf16) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S2048x1 .f32) (harg7 : arg7.IsWhole)
  (arg8 : Memref sig .tc .vmem S2048x1 .f32) (harg8 : arg8.IsWhole) (arg9 : Memref sig .tc .vmem S2048x1 .f32) (harg9 : arg9.IsWhole)
  (arg10 : Memref sig .tc .vmem S2048x1024 .bf16) (harg10 : arg10.IsWhole)
  (x0 : Vec F S2048x1024 .f32) (x1 : Vec F S512x1024 .bf16) (x2 : Vec F S1x512 .f32) (x3 : Vec F S1x512 .f32) (x4 : Vec F S1x512 .f32)
  (xs0 : Vec F S2048x1 .f32) (xs1 : Vec F S2048x1 .f32) (xs2 : Vec F S2048x1024 .bf16)

/-- The accumulator update: the accumulator read (acc) plus the two half-block sums computed from the cached data block
    (xb), its squared norms (x2col) and the step's blocks of centres, centre norms, widths and weights. -/
def step (xb : Vec F S2048x1024 .bf16) (x2col : Vec F S2048x1 .f32) (cblk : Vec F S512x1024 .bf16) (c2blk bblk wblk : Vec F S1x512 .f32)
    (acc : Vec F S2048x1 .f32) : Vec F S2048x1 .f32 :=
  k0_pay11 xb x2col (k0_pay4 cblk) (k0_pay5 c2blk) (k0_pay6 bblk) wblk k0_pay7 (k0_pay8 xb x2col cblk c2blk bblk)
    (k0_pay9 xb x2col cblk c2blk bblk) k0_pay10 acc

/-- Later steps: the accumulator ends at its old contents plus this step's two half-block sums. -/
theorem acc_B (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 xs0 xs1 xs2 = step xs2 xs1 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread, View.ld_unit_zero (S := S2048x1) hz,
    View.ld_unit_zero (S := S2048x1024) hz, View.ld_unit_zero (S := S512x1024) hz, View.ld_unit_zero (S := S1x512) hz]
  rfl

/-- The last step: the same update of the accumulator. -/
theorem acc_C (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 xs0 xs1 xs2 = step xs2 xs1 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread,
    harg8.read_unread, harg9.read_unread, harg10.read_unread, View.ld_unit_zero (S := S2048x1) hz,
    View.ld_unit_zero (S := S2048x1024) hz, View.ld_unit_zero (S := S512x1024) hz, View.ld_unit_zero (S := S1x512) hz]
  rfl

/-- The last step: the output block is the updated accumulator, read back after its store. -/
theorem out_C (hc0 : ¬cond0_0 i) (hc1 : cond0_1 i) :
    out0_C_5 c i arg2 harg2 arg3 harg3 arg4 harg4 arg5 harg5 arg6 harg6 arg7 harg7 arg8 harg8 arg9 harg9 arg10 harg10 hc0 hc1 x0 x1 x2 x3 x4 xs0 xs1 xs2 = step xs2 xs1 x1 x2 x3 x4 xs0 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readCov_unit_zero (S := S2048x1) _ hz, View.readCov_unit_zero (S := S2048x1024) _ hz, View.readAt_eq_ld,
    harg2.read_unread, harg3.read_unread, harg4.read_unread, harg5.read_unread, harg6.read_unread,
    harg8.read_unread, harg9.read_unread, harg10.read_unread, View.ld_unit_zero (S := S2048x1) hz,
    View.ld_unit_zero (S := S2048x1024) hz, View.ld_unit_zero (S := S512x1024) hz, View.ld_unit_zero (S := S1x512) hz]
  rfl

/-- The first step: the accumulator is reset to zero, the norms and the copy are taken from the data block, and the
    update runs over those. -/
theorem acc_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = step (k0_pay3 x0) (k0_pay2 x0) x1 x2 x3 x4 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1) hz]
  simp only [View.readCov_unit_zero (S := S2048x1) _ hz, View.readCov_unit_zero (S := S2048x1024) _ hz, View.readAt_eq_ld,
    harg2.read_unread, harg3.read_unread, harg4.read_unread, harg5.read_unread, harg6.read_unread,
    harg8.read_unread, harg9.read_unread, harg10.read_unread, View.ld_unit_zero (S := S2048x1) hz,
    View.ld_unit_zero (S := S2048x1024) hz, View.ld_unit_zero (S := S512x1024) hz, View.ld_unit_zero (S := S1x512) hz]
  rfl

/-- The first step leaves the rows' squared norms in their buffer. -/
theorem norms_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 = k0_pay2 x0 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz]
  simp only [View.readCov_unit_zero (S := S2048x1) _ hz, View.readCov_unit_zero (S := S2048x1024) _ hz, View.readAt_eq_ld,
    harg2.read_unread, harg3.read_unread, harg4.read_unread, harg5.read_unread, harg6.read_unread,
    harg8.read_unread, harg9.read_unread, harg10.read_unread, View.ld_unit_zero (S := S2048x1) hz,
    View.ld_unit_zero (S := S2048x1024) hz, View.ld_unit_zero (S := S512x1024) hz, View.ld_unit_zero (S := S1x512) hz]

/-- The first step leaves the data block's copy in its buffer. -/
theorem copy_A (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3 x4 = k0_pay3 x0 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz]
  simp only [View.readCov_unit_zero (S := S2048x1) _ hz, View.readCov_unit_zero (S := S2048x1024) _ hz, View.readAt_eq_ld,
    harg2.read_unread, harg3.read_unread, harg4.read_unread, harg5.read_unread, harg6.read_unread,
    harg8.read_unread, harg9.read_unread, harg10.read_unread, View.ld_unit_zero (S := S2048x1) hz,
    View.ld_unit_zero (S := S2048x1024) hz, View.ld_unit_zero (S := S512x1024) hz, View.ld_unit_zero (S := S1x512) hz]

end Cert.Rbf.Pieces

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Payload.lean ====
/-
  The accumulator update of one grid step, read entry by entry over the extended reals.

  A step holds a block of 2048 data rows (as the cached copy xb and the rows' squared norms x2col) and a block of 512
  centres with their squared norms, widths and output weights. It handles the centres in two halves of 256: for
  each half it forms the inner products of every data row with the half's centres (one matrix product with the
  transposed half), the activation exp(-beta * sqrt(max(|x|^2 + |c|^2 - 2<x,c>, 0))) with infinities masked to zero,
  multiplies by the weights and sums along the half. The new accumulator entry of row p is the old entry plus
  ((0 + first half's sum) + second half's sum): the partial sum over the centres grows by this block (Spec: psum_step).
-/
import proofs.«149360_j11081015623693_2_alg».proof.Proof.Pieces
import proofs.«149360_j11081015623693_2_alg».proof.Proof.Spec
import proofs.«149360_j11081015623693_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Payload

open Idealize.ShloMosaic Idealize.ShloMosaic.ValueIdx Cert.KernelIdeal Cert.KernelIdeal.Gen Cert.Rbf Cert.Rbf.Pieces Cert.Lib.Keepdims

/-! ## Layout reads -/

/-- A window of rows and columns cut out of a matrix reads, at (p, q), the matrix at the shifted coordinates. -/
theorem slice2_apply {n0 n1 k0 k1 : ℕ} (off : Fin 2 → ℕ) (x : (⟨2, ![n0, n1]⟩ : Shape).Idx → EReal)
    (h : (⟨2, ![n0, n1]⟩ : Shape).Slices off ⟨2, ![k0, k1]⟩) (p : Fin k0) (q : Fin k1) :
    extractStridedSlice ⟨2, ![k0, k1]⟩ off x h (ix2 p q) = ent2 x (off 0 + p.val) (off 1 + q.val) := by
  unfold extractStridedSlice
  refine (ent2_idx x _).trans ?_
  rfl

theorem lhs_row (j : S2048x256.Idx) (qq : dot_S2048x1024_S1024x256_S2048x256_1_0_0_1_n_n.contr.Idx) : (dot_S2048x1024_S1024x256_S2048x256_1_0_0_1_n_n.lhsIdx j qq 0).val = (j 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl

theorem rhs_col (j : S2048x256.Idx) (qq : dot_S2048x1024_S1024x256_S2048x256_1_0_0_1_n_n.contr.Idx) : (dot_S2048x1024_S1024x256_S2048x256_1_0_0_1_n_n.rhsIdx j qq 1).val = (j 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The product of a [2048, 1024] matrix with a [1024, 256] matrix into a zero accumulator: at (p, q) the sum over the
    1024 shared coordinates. -/
theorem matmul_rows (A : FVec Ideal S2048x1024 .bf16) (Bm : FVec Ideal S1024x256 .bf16) (p : Fin 2048) (q : Fin 256) :
    matmul dot_S2048x1024_S1024x256_S2048x256_1_0_0_1_n_n none A Bm (constant S2048x256 .f32 0x00000000#32) (ix2 p q)
      = ∑ d : Fin 1024, A (ix2 p d) * Bm (ix2 d q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact lhs_row _ _
    | ⟨1, _⟩ => exact (dot_S2048x1024_S1024x256_S2048x256_1_0_0_1_n_n.lhsIdx_val_of_single rfl _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (dot_S2048x1024_S1024x256_S2048x256_1_0_0_1_n_n.rhsIdx_val_of_single rfl _ _).trans hk
    | ⟨1, _⟩ => exact rhs_col _ _)
  rw [el, er]

/-- A [256, 1024] half block of centres transposed to [1024, 256] reads, at (d, q), the half block at (q, d). -/
theorem transpose_half_apply (cs : FVec Ideal S256x1024 .bf16) (d : Fin 1024) (q : Fin 256) :
    transpose S1024x256 [1, 0] cs transposes_S256x1024_p1_0_S1024x256 (ix2 d q) = cs (ix2 q d) :=
  transpose_apply [1, 0] cs transposes_S256x1024_p1_0_S1024x256 (ix2 d q) (ix2 q d) (fun b => match b with
    | ⟨0, _⟩ => rfl
    | ⟨1, _⟩ => rfl)

/-! ## The two stages of a half block -/

variable {F : FTy → Type} [FloatOps F]

/-- The activation of every data row against a half block of 256 centres. -/
def act (xb : Vec F S2048x1024 .bf16) (x2col : Vec F S2048x1 .f32) (cs : FVec F S256x1024 .bf16) (c2s bs : FVec F S1x256 .f32) :
    FVec F S2048x256 .f32 :=
  exp (mulf (broadcastTo S2048x256 (subf (broadcast S1x256 (Scalar.ofBits .f32 0x00000000#32)) bs) broadcasts_S1x256_S2048x256)
    (sqrt (maximumf (subf (addf (broadcastTo S2048x256 x2col broadcasts_S2048x1_S2048x256) (broadcastTo S2048x256 c2s broadcasts_S1x256_S2048x256))
      (mulf (broadcast S2048x256 (Scalar.ofBits .f32 0x40000000#32))
        (matmul dot_S2048x1024_S1024x256_S2048x256_1_0_0_1_n_n none xb (transpose S1024x256 [1, 0] cs transposes_S256x1024_p1_0_S1024x256) (constant S2048x256 .f32 0x00000000#32))))
      (broadcast S2048x256 (Scalar.ofBits .f32 0x00000000#32)))))

/-- The masked activations times the weights, summed along the half block, as a column. -/
def halfSum (e : FVec F S2048x256 .f32) (ws : FVec F S1x256 .f32) : FVec F S2048x1 .f32 :=
  shapeCast S2048x1 (multiReduction .add [1] S2048
    (mulf (select (cmpf .oeq (absf e) (broadcast S2048x256 (Scalar.ofBits .f32 0x7F800000#32))) (broadcast S2048x256 (Scalar.ofBits .f32 0x00000000#32)) e)
      (broadcastTo S2048x256 ws broadcasts_S1x256_S2048x256)) 0x00000000#32 reduces_S2048x256_S2048 (.inl rfl) rfl) shapeCasts_S2048_S2048x1

/-- The update is the old accumulator plus ((0 + first half) + second half). -/
theorem step_eq (xb : Vec F S2048x1024 .bf16) (x2col : Vec F S2048x1 .f32) (cblk : Vec F S512x1024 .bf16) (c2blk bblk wblk : Vec F S1x512 .f32)
    (acc : Vec F S2048x1 .f32) :
    step xb x2col cblk c2blk bblk wblk acc
      = shapeCast S2048x1 (addf acc (addf (addf (broadcast S2048x1 (Scalar.ofBits .f32 0x00000000#32))
          (halfSum (act xb x2col (extractStridedSlice S256x1024 ![0, 0] (shapeCast S512x1024 cblk shapeCasts_S512x1024_S512x1024) slices_S512x1024_o0_0_S256x1024)
              (extractStridedSlice S1x256 ![0, 0] (shapeCast S1x512 c2blk shapeCasts_S1x512_S1x512) slices_S1x512_o0_0_S1x256)
              (extractStridedSlice S1x256 ![0, 0] (shapeCast S1x512 bblk shapeCasts_S1x512_S1x512) slices_S1x512_o0_0_S1x256))
            (extractStridedSlice S1x256 ![0, 0] wblk slices_S1x512_o0_0_S1x256)))
          (halfSum (act xb x2col (extractStridedSlice S256x1024 ![256, 0] (shapeCast S512x1024 cblk shapeCasts_S512x1024_S512x1024) slices_S512x1024_o256_0_S256x1024)
              (extractStridedSlice S1x256 ![0, 256] (shapeCast S1x512 c2blk shapeCasts_S1x512_S1x512) slices_S1x512_o0_256_S1x256)
              (extractStridedSlice S1x256 ![0, 256] (shapeCast S1x512 bblk shapeCasts_S1x512_S1x512) slices_S1x512_o0_256_S1x256))
            (extractStridedSlice S1x256 ![0, 256] wblk slices_S1x512_o0_256_S1x256)))) shapeCasts_S2048x1_S2048x1 := rfl

end Cert.Rbf.Payload

end
-- ==== Proof.StepValue.lean ====
/-
  The accumulator update at exact arithmetic, entry by entry, in terms of the whole arrays.

  If the cached data block holds rows r0 .. r0+2047 of the data X, the norms buffer their squared norms, the step's
  blocks hold centres c0 .. c0+511 of C with their squared norms, widths B and weights W, and the accumulator holds
  the partial sums over the first c0 centres, then after the update the accumulator holds, at row p, the partial sum
  over the first c0 centres plus ((0 + the next 256 contributions) + the following 256).
-/
import proofs.«149360_j11081015623693_2_alg».proof.Proof.Payload

noncomputable section

open scoped BigOperators

namespace Cert.Rbf.Payload

open Idealize.ShloMosaic Idealize.ShloMosaic.ValueIdx Cert.KernelIdeal Cert.KernelIdeal.Gen Cert.Rbf Cert.Rbf.Pieces Cert.Lib.Keepdims

/-- The activation of row p against centre j of a half block: exp(-beta_j * sqrt(max(|x_p|^2 + |c_j|^2 - 2 <x_p, c_j>, 0))). -/
theorem act_apply (xb : Vec Ideal S2048x1024 .bf16) (x2col : Vec Ideal S2048x1 .f32) (cs : FVec Ideal S256x1024 .bf16)
    (c2s bs : FVec Ideal S1x256 .f32) (p : Fin 2048) (j : Fin 256) :
    act (F := Ideal) xb x2col cs c2s bs (ix2 p j)
      = expo (x2col (ix2 p (0 : Fin 1))) (c2s (ix2 (0 : Fin 1) j)) (∑ d : Fin 1024, xb (ix2 p d) * cs (ix2 j d)) (bs (ix2 (0 : Fin 1) j)) := by
  have h1 : broadcastTo S2048x256 x2col broadcasts_S2048x1_S2048x256 (ix2 p j) = x2col (ix2 p (0 : Fin 1)) :=
    broadcastTo_a1_ab_apply x2col broadcasts_S2048x1_S2048x256 p j
  have h2 : broadcastTo S2048x256 c2s broadcasts_S1x256_S2048x256 (ix2 p j) = c2s (ix2 (0 : Fin 1) j) :=
    broadcastTo_1b_ab_apply c2s broadcasts_S1x256_S2048x256 p j
  have h3 : broadcastTo S2048x256 (subf (broadcast S1x256 (Scalar.ofBits (F := Ideal) .f32 0x00000000#32)) bs) broadcasts_S1x256_S2048x256 (ix2 p j)
      = -(bs (ix2 (0 : Fin 1) j)) := by
    refine (broadcastTo_1b_ab_apply _ broadcasts_S1x256_S2048x256 p j).trans ?_
    show Ideal.ofBits .f32 0x00000000#32 - bs (ix2 (0 : Fin 1) j) = _
    rw [Ideal.ofBits_zero_f32, zero_sub]
  have h4 : matmul dot_S2048x1024_S1024x256_S2048x256_1_0_0_1_n_n none xb (transpose S1024x256 [1, 0] cs transposes_S256x1024_p1_0_S1024x256)
      (constant S2048x256 .f32 0x00000000#32) (ix2 p j) = ∑ d : Fin 1024, xb (ix2 p d) * cs (ix2 j d) :=
    (matmul_rows xb _ p j).trans (Finset.sum_congr rfl fun d _ => by rw [transpose_half_apply])
  unfold act expo
  exact congrArg Ideal.exp (congrArg₂ (· * ·) h3 (congrArg Ideal.sqrt (congrArg₂ max
    (congrArg₂ (· - ·) (congrArg₂ (· + ·) h1 h2) (congrArg (Ideal.ofBits .f32 0x40000000#32 * ·) h4)) rfl)))

/-- A half block's sum at row p: the masked activations times the weights, summed over the half's 256 centres. -/
theorem halfSum_apply (e : FVec Ideal S2048x256 .f32) (ws : FVec Ideal S1x256 .f32) (p : Fin 2048) (u : Fin 1) :
    halfSum (F := Ideal) e ws (ix2 p u)
      = ∑ j : Fin 256, Scalar.select (Ideal.cmp .oeq (max (e (ix2 p j)) (-(e (ix2 p j)))) (Ideal.ofBits .f32 0x7F800000#32))
          (Ideal.ofBits .f32 0x00000000#32) (e (ix2 p j)) * ws (ix2 (0 : Fin 1) j) := by
  unfold halfSum
  rw [shapeCast_a_a1_apply, rowSum_apply]
  refine Finset.sum_congr rfl fun j _ => ?_
  rw [mulf_apply, broadcastTo_1b_ab_apply ws broadcasts_S1x256_S2048x256 p j]
  rfl

section
variable (X C : ℕ → ℕ → EReal) (B W : ℕ → EReal) (r0 c0 : ℕ)
  (xb : Vec Ideal S2048x1024 .bf16) (x2col : Vec Ideal S2048x1 .f32) (cblk : Vec Ideal S512x1024 .bf16)
  (c2blk bblk wblk : Vec Ideal S1x512 .f32) (acc : Vec Ideal S2048x1 .f32)

/-- One half block (columns off .. off+255 of the step's 512) contributes its 256 terms of the output sum. -/
theorem half_value (off : ℕ) (hoff : off + 256 ≤ 512)
    (hxb : ∀ (p : Fin 2048) (d : Fin 1024), xb (ix2 p d) = X (r0 + p.val) d.val)
    (hx2 : ∀ (p : Fin 2048), x2col (ix2 p (0 : Fin 1)) = sqn X (r0 + p.val))
    (cs : FVec Ideal S256x1024 .bf16) (c2s bs ws : FVec Ideal S1x256 .f32)
    (hcs : ∀ (j : Fin 256) (d : Fin 1024), cs (ix2 j d) = C (c0 + (off + j.val)) d.val)
    (hc2s : ∀ j : Fin 256, c2s (ix2 (0 : Fin 1) j) = sqn C (c0 + (off + j.val)))
    (hbs : ∀ j : Fin 256, bs (ix2 (0 : Fin 1) j) = B (c0 + (off + j.val)))
    (hws : ∀ j : Fin 256, ws (ix2 (0 : Fin 1) j) = W (c0 + (off + j.val)))
    (p : Fin 2048) (u : Fin 1) :
    halfSum (F := Ideal) (act (F := Ideal) xb x2col cs c2s bs) ws (ix2 p u)
      = ∑ j : Fin 256, term X C B W (r0 + p.val) (c0 + (off + j.val)) := by
  rw [halfSum_apply]
  refine Finset.sum_congr rfl fun j _ => ?_
  rw [act_apply, hx2, hc2s, hbs, hws]
  have hd : (∑ d : Fin 1024, xb (ix2 p d) * cs (ix2 j d)) = dotp X C (r0 + p.val) (c0 + (off + j.val)) := by
    unfold dotp
    exact Finset.sum_congr rfl fun d _ => by rw [hxb, hcs]
  rw [hd]
  rfl

/-- The whole update: the accumulator grows by the step's block of 512 centres, taken as two halves. -/
theorem step_value
    (hxb : ∀ (p : Fin 2048) (d : Fin 1024), xb (ix2 p d) = X (r0 + p.val) d.val)
    (hx2 : ∀ (p : Fin 2048), x2col (ix2 p (0 : Fin 1)) = sqn X (r0 + p.val))
    (hc : ∀ q d : ℕ, q < 512 → d < 1024 → ent2 cblk q d = C (c0 + q) d)
    (hc2 : ∀ q : ℕ, q < 512 → ent2 c2blk 0 q = sqn C (c0 + q))
    (hb : ∀ q : ℕ, q < 512 → ent2 bblk 0 q = B (c0 + q))
    (hw : ∀ q : ℕ, q < 512 → ent2 wblk 0 q = W (c0 + q))
    (p : Fin 2048) (u : Fin 1) :
    step (F := Ideal) xb x2col cblk c2blk bblk wblk acc (ix2 p u)
      = acc (ix2 p u) + ((0 + ∑ j : Fin 256, term X C B W (r0 + p.val) (c0 + j.val))
          + ∑ j : Fin 256, term X C B W (r0 + p.val) (c0 + (256 + j.val))) := by
  rw [step_eq, shapeCast_self]
  show acc (ix2 p u) + ((Ideal.ofBits .f32 0x00000000#32 + halfSum (F := Ideal) _ _ (ix2 p u)) + halfSum (F := Ideal) _ _ (ix2 p u)) = _
  rw [half_value X C B W r0 c0 xb x2col 0 (by omega) hxb hx2 _ _ _ _
      (fun j d => by
        rw [shapeCast_self]
        refine (slice2_apply _ cblk _ j d).trans ?_
        show ent2 cblk (0 + j.val) (0 + d.val) = _
        rw [Nat.zero_add d.val]
        exact hc (0 + j.val) d.val (by have := j.isLt; omega) d.isLt)
      (fun j => by
        rw [shapeCast_self]
        refine (slice2_apply _ c2blk _ (0 : Fin 1) j).trans ?_
        exact hc2 (0 + j.val) (by have := j.isLt; omega))
      (fun j => by
        rw [shapeCast_self]
        refine (slice2_apply _ bblk _ (0 : Fin 1) j).trans ?_
        exact hb (0 + j.val) (by have := j.isLt; omega))
      (fun j => by
        refine (slice2_apply _ wblk _ (0 : Fin 1) j).trans ?_
        exact hw (0 + j.val) (by have := j.isLt; omega))
      p u,
    half_value X C B W r0 c0 xb x2col 256 (by omega) hxb hx2 _ _ _ _
      (fun j d => by
        rw [shapeCast_self]
        refine (slice2_apply _ cblk _ j d).trans ?_
        show ent2 cblk (256 + j.val) (0 + d.val) = _
        rw [Nat.zero_add d.val]
        exact hc (256 + j.val) d.val (by have := j.isLt; omega) d.isLt)
      (fun j => by
        rw [shapeCast_self]
        refine (slice2_apply _ c2blk _ (0 : Fin 1) j).trans ?_
        exact hc2 (256 + j.val) (by have := j.isLt; omega))
      (fun j => by
        rw [shapeCast_self]
        refine (slice2_apply _ bblk _ (0 : Fin 1) j).trans ?_
        exact hb (256 + j.val) (by have := j.isLt; omega))
      (fun j => by
        refine (slice2_apply _ wblk _ (0 : Fin 1) j).trans ?_
        exact hw (256 + j.val) (by have := j.isLt; omega))
      p u,
    Ideal.ofBits_zero_f32]
  simp only [Nat.zero_add]

end

end Cert.Rbf.Payload

end
-- ==== Proof.Blocks.lean ====
/-
  The blocks the kernel's windows hand the body at a grid point, read off the whole arrays.

  The grid is 2 x 8: point t works on data-row block t / 8 (2048 rows) and centre block t % 8 (512 centres). The
  data window gives rows 2048 (t / 8) + p of the data; the centre window rows 512 (t % 8) + q of the centres (the
  host's change of float format is the identity at exact arithmetic); the three row windows give columns
  512 (t % 8) + q of the centres' squared norms (a host row reduction from the zero word, recast as a row), of the
  widths (recast as a row) and of the output weights.
-/
import proofs.«149360_j11081015623693_2_alg».proof.Proof.Gen.KernelIdeal.Frame
import proofs.«149360_j11081015623693_2_alg».proof.Proof.Spec
import Idealize.ShloMosaic.Lib.ValueLayout
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open scoped BigOperators

namespace Cert.Rbf.Blocks

open Idealize.ShloMosaic Idealize.ShloMosaic.TcCoe Idealize.SL.Sem Idealize.ShloMosaic.ValueIdx
open Cert.KernelIdeal Cert.KernelIdeal.Gen Cert.Rbf

variable (m : (ℓ : Loc nD τ sig) → Buf (Elt Ideal) ℓ) (ρ : Dev nD → PrngReg)

/-! ## The arrays the host prepares before the kernel -/

theorem V_centres (c : Dev nD) : (V m c main_v3 : (⟨S4096x1024, .bf16⟩ : BufTy).Contents (Elt Ideal))
    = ((truncf (F := Ideal) .bf16 · bitsLt_bf16_f32) : (⟨S4096x1024, .f32⟩ : BufTy).Contents (Elt Ideal) → (⟨S4096x1024, .bf16⟩ : BufTy).Contents (Elt Ideal)) (m ((c : Thread nD τ).loc main_arg1)) := by
  show StableHlo.after hostOps0 (fun b => m (c, b)) (Proc.devRef .tc main_v3) = _
  after_results

theorem V_widths (c : Dev nD) : (V m c main_v4 : (⟨S1x4096, .f32⟩ : BufTy).Contents (Elt Ideal))
    = shapeCast S1x4096 (m ((c : Thread nD τ).loc main_arg2) : (⟨S4096, .f32⟩ : BufTy).Contents (Elt Ideal)) shapeCasts_S4096_S1x4096 := by
  show StableHlo.after hostOps0 (fun b => m (c, b)) (Proc.devRef .tc main_v4) = _
  after_results; rfl

theorem V_centreNorms (c : Dev nD) : (V m c main_v2 : (⟨S1x4096, .f32⟩ : BufTy).Contents (Elt Ideal))
    = shapeCast S1x4096 (Host.reduceAdd (mulf (m ((c : Thread nD τ).loc main_arg1) : (⟨S4096x1024, .f32⟩ : BufTy).Contents (Elt Ideal)) (m ((c : Thread nD τ).loc main_arg1)))
        (constant (F := Ideal) S_ .f32 0x00000000#32) reducesTo_S4096x1024_S4096_d1 h_S_) shapeCasts_S4096_S1x4096 := by
  show StableHlo.after hostOps0 (fun b => m (c, b)) (Proc.devRef .tc main_v2) = _
  after_results; rfl

/-- The host's sum of squares along each centre, from the zero word: the centre's squared norm. -/
theorem rowSquares_apply (A : S4096x1024.Idx → EReal) (i : Fin 4096) :
    Host.reduceAdd (F := Ideal) (mulf (F := Ideal) A A) (constant (F := Ideal) S_ .f32 0x00000000#32) reducesTo_S4096x1024_S4096_d1 h_S_ (ix1 i)
      = sqn (ent2 A) i.val := by
  simp only [Host.reduceAdd, Ideal.hostReduceAdd_def]
  rw [Ideal.hostReduceAdd_single reducesTo_S4096x1024_S4096_d1 (by decide)]
  show Ideal.ofBits .f32 0x00000000#32 + _ = _
  rw [Ideal.ofBits_zero_f32, zero_add]
  unfold sqn
  refine Finset.sum_congr rfl fun k _ => ?_
  show A _ * A _ = _
  have e : ∀ J : S4096x1024.Idx, (J 0).val = i.val → (J 1).val = k.val → A J = ent2 A i.val k.val := fun J h0 h1 => by
    rw [ent2_idx A J, h0, h1]
  rw [e _ rfl rfl]

/-! ## Where each window sits at a grid point -/

theorem idx0 : ∀ t : Fin cfg0.N, win0_0.index t 0 = t.val / 8 ∧ win0_0.index t 1 = 0 := (by decide +kernel : ∀ t : Fin grid0.N, _)
theorem idx1 : ∀ t : Fin cfg0.N, win0_1.index t 0 = t.val % 8 ∧ win0_1.index t 1 = 0 := (by decide +kernel : ∀ t : Fin grid0.N, _)
theorem idx2 : ∀ t : Fin cfg0.N, win0_2.index t 0 = 0 ∧ win0_2.index t 1 = t.val % 8 := (by decide +kernel : ∀ t : Fin grid0.N, _)
theorem idx3 : ∀ t : Fin cfg0.N, win0_3.index t 0 = 0 ∧ win0_3.index t 1 = t.val % 8 := (by decide +kernel : ∀ t : Fin grid0.N, _)
theorem idx4 : ∀ t : Fin cfg0.N, win0_4.index t 0 = 0 ∧ win0_4.index t 1 = t.val % 8 := (by decide +kernel : ∀ t : Fin grid0.N, _)
theorem idx5 : ∀ t : Fin cfg0.N, win0_5.index t 0 = t.val / 8 ∧ win0_5.index t 1 = 0 := (by decide +kernel : ∀ t : Fin grid0.N, _)

/-! ## The blocks -/

/-- The data block: rows 2048 (t / 8) + p of the data. -/
theorem data_block (c : Dev nD) (t : Fin cfg0.N) (p : Fin 2048) (d : Fin 1024) :
    (iblk m c 0 t : Vec Ideal S2048x1024 .f32) (ix2 p d)
      = ent2 (m ((c : Thread nD τ).loc main_arg0) : S4096x1024.Idx → EReal) (2048 * (t.val / 8) + p.val) d.val := by
  have hN : t.val < 16 := lt_of_lt_of_eq t.isLt (show cfg0.N = 16 from N_0)
  unfold iblk
  rw [View.read_apply]
  show V m c main_arg0 (((cfg0.win 0).blk t).view.emb (ix2 p d)) = _
  rw [V_main_arg0, ent2_idx (m ((c : Thread nD τ).loc main_arg0) : S4096x1024.Idx → EReal)]
  congr 1
  · show win0_0.index t 0 * 2048 + 1 * p.val = _; rw [(idx0 t).1]; omega
  · show win0_0.index t 1 * 1024 + 1 * d.val = _; rw [(idx0 t).2]; omega

/-- The centre block: rows 512 (t % 8) + q of the centres. -/
theorem centre_block (c : Dev nD) (t : Fin cfg0.N) (q d : ℕ) (hq : q < 512) (hd : d < 1024) :
    ent2 (iblk m c 1 t : Vec Ideal S512x1024 .bf16) q d
      = ent2 (m ((c : Thread nD τ).loc main_arg1) : S4096x1024.Idx → EReal) (512 * (t.val % 8) + q) d := by
  have hN : t.val < 16 := lt_of_lt_of_eq t.isLt (show cfg0.N = 16 from N_0)
  unfold ent2
  rw [dif_pos ⟨hq, hd⟩, dif_pos ⟨by omega, hd⟩]
  unfold iblk
  rw [View.read_apply]
  show V m c main_v3 (((cfg0.win 1).blk t).view.emb (ix2 ⟨q, hq⟩ ⟨d, hd⟩)) = _
  rw [V_centres]
  show m ((c : Thread nD τ).loc main_arg1) _ = m ((c : Thread nD τ).loc main_arg1) _
  congr 1
  funext a
  apply Fin.ext
  match a with
  | ⟨0, _⟩ => show win0_1.index t 0 * 512 + 1 * q = 512 * (t.val % 8) + q; rw [(idx1 t).1]; omega
  | ⟨1, _⟩ => show win0_1.index t 1 * 1024 + 1 * d = d; rw [(idx1 t).2]; omega

/-- The centre-norm block: the squared norms of centres 512 (t % 8) + q. -/
theorem centreNorm_block (c : Dev nD) (t : Fin cfg0.N) (q : ℕ) (hq : q < 512) :
    ent2 (iblk m c 2 t : Vec Ideal S1x512 .f32) 0 q
      = sqn (ent2 (m ((c : Thread nD τ).loc main_arg1) : S4096x1024.Idx → EReal)) (512 * (t.val % 8) + q) := by
  have hN : t.val < 16 := lt_of_lt_of_eq t.isLt (show cfg0.N = 16 from N_0)
  have hlt : 512 * (t.val % 8) + q < 4096 := by omega
  unfold ent2
  rw [dif_pos ⟨Nat.one_pos, hq⟩]
  unfold iblk
  rw [View.read_apply]
  show V m c main_v2 (((cfg0.win 2).blk t).view.emb (ix2 ⟨0, Nat.one_pos⟩ ⟨q, hq⟩)) = _
  rw [V_centreNorms]
  have hJ : (((cfg0.win 2).blk t).view.emb (ix2 ⟨0, Nat.one_pos⟩ ⟨q, hq⟩) : S1x4096.Idx) = ix2 (0 : Fin 1) (⟨512 * (t.val % 8) + q, hlt⟩ : Fin 4096) := by
    funext a
    apply Fin.ext
    match a with
    | ⟨0, _⟩ => show win0_2.index t 0 * 1 + 1 * 0 = 0; rw [(idx2 t).1]
    | ⟨1, _⟩ => show win0_2.index t 1 * 512 + 1 * q = 512 * (t.val % 8) + q; rw [(idx2 t).2]; omega
  rw [hJ, shapeCast_a_1a_apply]
  exact rowSquares_apply _ ⟨512 * (t.val % 8) + q, hlt⟩

/-- The width block: the widths of centres 512 (t % 8) + q. -/
theorem width_block (c : Dev nD) (t : Fin cfg0.N) (q : ℕ) (hq : q < 512) :
    ent2 (iblk m c 3 t : Vec Ideal S1x512 .f32) 0 q
      = ent1 (m ((c : Thread nD τ).loc main_arg2) : S4096.Idx → EReal) (512 * (t.val % 8) + q) := by
  have hN : t.val < 16 := lt_of_lt_of_eq t.isLt (show cfg0.N = 16 from N_0)
  have hlt : 512 * (t.val % 8) + q < 4096 := by omega
  unfold ent2
  rw [dif_pos ⟨Nat.one_pos, hq⟩]
  unfold iblk
  rw [View.read_apply]
  show V m c main_v4 (((cfg0.win 3).blk t).view.emb (ix2 ⟨0, Nat.one_pos⟩ ⟨q, hq⟩)) = _
  rw [V_widths]
  have hJ : (((cfg0.win 3).blk t).view.emb (ix2 ⟨0, Nat.one_pos⟩ ⟨q, hq⟩) : S1x4096.Idx) = ix2 (0 : Fin 1) (⟨512 * (t.val % 8) + q, hlt⟩ : Fin 4096) := by
    funext a
    apply Fin.ext
    match a with
    | ⟨0, _⟩ => show win0_3.index t 0 * 1 + 1 * 0 = 0; rw [(idx3 t).1]
    | ⟨1, _⟩ => show win0_3.index t 1 * 512 + 1 * q = 512 * (t.val % 8) + q; rw [(idx3 t).2]; omega
  rw [hJ, shapeCast_a_1a_apply]
  exact (ent1_ix1 _ ⟨512 * (t.val % 8) + q, hlt⟩).symm

/-- The weight block: the output weights of centres 512 (t % 8) + q. -/
theorem weight_block (c : Dev nD) (t : Fin cfg0.N) (q : ℕ) (hq : q < 512) :
    ent2 (iblk m c 4 t : Vec Ideal S1x512 .f32) 0 q
      = ent2 (m ((c : Thread nD τ).loc main_arg3) : S1x4096.Idx → EReal) 0 (512 * (t.val % 8) + q) := by
  have hN : t.val < 16 := lt_of_lt_of_eq t.isLt (show cfg0.N = 16 from N_0)
  have hlt : 512 * (t.val % 8) + q < 4096 := by omega
  unfold ent2
  rw [dif_pos ⟨Nat.one_pos, hq⟩, dif_pos ⟨Nat.one_pos, hlt⟩]
  unfold iblk
  rw [View.read_apply]
  show V m c main_arg3 (((cfg0.win 4).blk t).view.emb (ix2 ⟨0, Nat.one_pos⟩ ⟨q, hq⟩)) = _
  rw [V_main_arg3]
  congr 1
  funext a
  apply Fin.ext
  match a with
  | ⟨0, _⟩ => show win0_4.index t 0 * 1 + 1 * 0 = 0; rw [(idx4 t).1]
  | ⟨1, _⟩ => show win0_4.index t 1 * 512 + 1 * q = 512 * (t.val % 8) + q; rw [(idx4 t).2]; omega

end Cert.Rbf.Blocks

end
-- ==== Proof.Invariant.lean ====
/-
  What the carried buffers hold after every grid point, by induction along the grid.

  Point t handles data-row block t / 8 and centre block t % 8. After it, for every row p of the block:
  the accumulator holds the sum of the contributions of centres 0 .. 512 (t % 8 + 1) - 1 to output row
  2048 (t / 8) + p; the norms buffer holds that row's squared norm; the cached copy holds the row itself; and at the
  last centre block (t % 8 = 7) the output block holds the complete sum over all 4096 centres.
  The first centre block starts from a zeroed accumulator and fresh norms and copy; each later block adds its
  512 contributions (two halves of 256) to what the block before left.
-/
import proofs.«149360_j11081015623693_2_alg».proof.Proof.StepValue
import proofs.«149360_j11081015623693_2_alg».proof.Proof.Blocks

set_option maxRecDepth 16384

noncomputable section

open scoped BigOperators

namespace Cert.Rbf.Invariant

open Idealize.ShloMosaic Idealize.ShloMosaic.TcCoe Idealize.SL.Sem Idealize.ShloMosaic.ValueIdx
open Cert.KernelIdeal Cert.KernelIdeal.Gen Cert.Rbf Cert.Rbf.Pieces Cert.Rbf.Payload Cert.Rbf.Blocks Cert.Lib.Keepdims

/-! ## The first step's fresh values -/

theorem zeroAcc_apply (j : S2048x1.Idx) : k0_pay1 (F := Ideal) j = 0 := by
  unfold k0_pay1
  rw [shapeCast_self]
  exact Ideal.ofBits_zero_f32

theorem norms_apply (v : Vec Ideal S2048x1024 .f32) (p : Fin 2048) (u : Fin 1) :
    k0_pay2 (F := Ideal) v (ix2 p u) = ∑ d : Fin 1024, v (ix2 p d) * v (ix2 p d) := by
  unfold k0_pay2
  dsimp only
  rw [shapeCast_self, shapeCast_a_a1_apply, rowSum_apply]
  rfl

theorem copy_apply (v : Vec Ideal S2048x1024 .f32) (j : S2048x1024.Idx) : k0_pay3 (F := Ideal) v j = v j := by
  unfold k0_pay3
  rw [shapeCast_self]
  rfl

/-! ## The invariant -/

variable (m : (ℓ : Loc nD τ sig) → Buf (Elt Ideal) ℓ) (c : Dev nD)

/-- The data, the centres, the widths and the output weights, read at natural coordinates. -/
abbrev dataX : ℕ → ℕ → EReal := ent2 (m ((c : Thread nD τ).loc main_arg0) : S4096x1024.Idx → EReal)
abbrev centC : ℕ → ℕ → EReal := ent2 (m ((c : Thread nD τ).loc main_arg1) : S4096x1024.Idx → EReal)
abbrev widB : ℕ → EReal := ent1 (m ((c : Thread nD τ).loc main_arg2) : S4096.Idx → EReal)
abbrev wgtW : ℕ → EReal := fun q => ent2 (m ((c : Thread nD τ).loc main_arg3) : S1x4096.Idx → EReal) 0 q

/-- The contents of the output block and the three carried buffers after the point at position n. -/
def Inv (n : ℕ) (h : n < cfg0.N) : Prop :=
  (∀ (p : Fin 2048) (u : Fin 1), (outsAt0 m c n h).2.1 (ix2 p u)
      = psum (dataX m c) (centC m c) (widB m c) (wgtW m c) (2048 * (n / 8) + p.val) (512 * (n % 8 + 1)))
  ∧ (∀ (p : Fin 2048), (outsAt0 m c n h).2.2.1 (ix2 p (0 : Fin 1)) = sqn (dataX m c) (2048 * (n / 8) + p.val))
  ∧ (∀ (p : Fin 2048) (d : Fin 1024), (outsAt0 m c n h).2.2.2 (ix2 p d) = dataX m c (2048 * (n / 8) + p.val) d.val)
  ∧ (n % 8 = 7 → ∀ (p : Fin 2048) (u : Fin 1), (outsAt0 m c n h).1 (ix2 p u)
      = psum (dataX m c) (centC m c) (widB m c) (wgtW m c) (2048 * (n / 8) + p.val) 4096)

/-- The update at point t, given what the cached copy, the norms and the accumulator hold going in. -/
theorem update_value (t : Fin cfg0.N) (xb : Vec Ideal S2048x1024 .bf16) (x2col acc : Vec Ideal S2048x1 .f32)
    (hxb : ∀ (p : Fin 2048) (d : Fin 1024), xb (ix2 p d) = dataX m c (2048 * (t.val / 8) + p.val) d.val)
    (hx2 : ∀ (p : Fin 2048), x2col (ix2 p (0 : Fin 1)) = sqn (dataX m c) (2048 * (t.val / 8) + p.val))
    (hacc : ∀ (p : Fin 2048) (u : Fin 1), acc (ix2 p u)
      = psum (dataX m c) (centC m c) (widB m c) (wgtW m c) (2048 * (t.val / 8) + p.val) (512 * (t.val % 8)))
    (p : Fin 2048) (u : Fin 1) :
    step (F := Ideal) xb x2col (iblk m c 1 t) (iblk m c 2 t) (iblk m c 3 t) (iblk m c 4 t) acc (ix2 p u)
      = psum (dataX m c) (centC m c) (widB m c) (wgtW m c) (2048 * (t.val / 8) + p.val) (512 * (t.val % 8 + 1)) := by
  rw [psum_step]
  refine (step_value (dataX m c) (centC m c) (widB m c) (wgtW m c) (2048 * (t.val / 8)) (512 * (t.val % 8)) xb x2col
    (iblk m c 1 t) (iblk m c 2 t) (iblk m c 3 t) (iblk m c 4 t) acc hxb hx2
    (fun q d hq hd => centre_block m c t q d hq hd) (fun q hq => centreNorm_block m c t q hq)
    (fun q hq => width_block m c t q hq) (fun q hq => weight_block m c t q hq) p u).trans ?_
  rw [hacc]

/-- A first step (t % 8 = 0): from a zeroed accumulator and the data block itself. -/
theorem inv_A (t : Fin cfg0.N) (h0 : t.val % 8 = 0) (h1 : ¬t.val % 8 = 7) : Inv m c t.val t.isLt := by
  unfold Inv
  rw [outsAt0_A m c t h0 h1]
  dsimp only
  have hcopy : ∀ (p : Fin 2048) (d : Fin 1024), k0_pay3 (F := Ideal) (iblk m c 0 t) (ix2 p d) = dataX m c (2048 * (t.val / 8) + p.val) d.val :=
    fun p d => (copy_apply _ _).trans (data_block m c t p d)
  have hnorm : ∀ (p : Fin 2048), k0_pay2 (F := Ideal) (iblk m c 0 t) (ix2 p (0 : Fin 1)) = sqn (dataX m c) (2048 * (t.val / 8) + p.val) := fun p => by
    rw [norms_apply]
    unfold sqn
    exact Finset.sum_congr rfl fun d _ => by rw [data_block m c t p d]
  refine ⟨fun p u => ?_, fun p => ?_, fun p d => ?_, fun h7 => absurd h7 h1⟩
  · refine (congrFun (acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))) (ix2 p u)).trans ?_
    refine update_value m c t _ _ _ hcopy hnorm (fun p u => ?_) p u
    rw [zeroAcc_apply, h0, Nat.mul_zero, psum_zero]
  · refine (congrFun (norms_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))) (ix2 p (0 : Fin 1))).trans ?_
    exact hnorm p
  · refine (congrFun (copy_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h))) (ix2 p d)).trans ?_
    exact hcopy p d

/-- A middle step (t % 8 not 0, not 7): over what the step before left. -/
theorem inv_B (t : Fin cfg0.N) (h0 : ¬t.val % 8 = 0) (h1 : ¬t.val % 8 = 7)
    (ih : Inv m c (t.val - 1) (Nat.lt_of_le_of_lt (Nat.sub_le _ _) t.isLt)) : Inv m c t.val t.isLt := by
  have e1 : (t.val - 1) / 8 = t.val / 8 := by omega
  have e2 : (t.val - 1) % 8 + 1 = t.val % 8 := by omega
  unfold Inv at ih
  rw [e1, e2] at ih
  unfold Inv
  rw [outsAt0_B m c t h0 h1]
  dsimp only
  refine ⟨fun p u => ?_, fun p => ih.2.1 p, fun p d => ih.2.2.1 p d, fun h7 => absurd h7 h1⟩
  refine (congrFun (acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))) (ix2 p u)).trans ?_
  exact update_value m c t _ _ _ ih.2.2.1 ih.2.1 ih.1 p u

/-- A last step (t % 8 = 7): the same update, and the output block receives the completed sums. -/
theorem inv_C (t : Fin cfg0.N) (h0 : ¬t.val % 8 = 0) (h1 : t.val % 8 = 7)
    (ih : Inv m c (t.val - 1) (Nat.lt_of_le_of_lt (Nat.sub_le _ _) t.isLt)) : Inv m c t.val t.isLt := by
  have e1 : (t.val - 1) / 8 = t.val / 8 := by omega
  have e2 : (t.val - 1) % 8 + 1 = t.val % 8 := by omega
  unfold Inv at ih
  rw [e1, e2] at ih
  unfold Inv
  rw [outsAt0_C m c t h0 h1]
  dsimp only
  refine ⟨fun p u => ?_, fun p => ih.2.1 p, fun p d => ih.2.2.1 p d, fun _ p u => ?_⟩
  · refine (congrFun (acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)) (ix2 p u)).trans ?_
    exact update_value m c t _ _ _ ih.2.2.1 ih.2.1 ih.1 p u
  · refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)) (ix2 p u)).trans ?_
    refine (update_value m c t _ _ _ ih.2.2.1 ih.2.1 ih.1 p u).trans ?_
    rw [h1]

/-- The invariant holds after every point. -/
theorem inv : ∀ (n : ℕ) (h : n < cfg0.N), Inv m c n h
  | 0, h => inv_A m c ⟨0, h⟩ rfl (by show ¬(0 % 8 = 7); omega)
  | n + 1, h => by
    have ih := inv n (Nat.lt_of_succ_lt h)
    by_cases h0 : (n + 1) % 8 = 0
    · exact inv_A m c ⟨n + 1, h⟩ h0 (by dsimp only; omega)
    · by_cases h1 : (n + 1) % 8 = 7
      · exact inv_C m c ⟨n + 1, h⟩ h0 h1 ih
      · exact inv_B m c ⟨n + 1, h⟩ h0 h1 ih

end Cert.Rbf.Invariant

end
-- ==== Proof.Final.lean ====
/-
  From the blocks the kernel writes back to its whole result, and the host's last addition.

  The output window writes its block back only at the last centre block of each data-row block (t % 8 = 7), and
  then it holds, for rows 2048 (t / 8) + p, the complete sums over all 4096 centres. The two write-backs (t = 7 and
  t = 15) cover all 4096 rows, so the kernel's result array is the row-by-row sum over the centres; the host then
  adds the bias, broadcast down the rows.
-/
import proofs.«149360_j11081015623693_2_alg».proof.Proof.Invariant
import Idealize.ShloMosaic.Lib.Pipeline.Value
import Idealize.ShloMosaic.Lib.StableHlo.Run
import Idealize.ShloMosaic.Lib.Tactic

set_option maxRecDepth 16384

noncomputable section

open scoped BigOperators

namespace Cert.Rbf.Final

open Idealize.ShloMosaic Idealize.ShloMosaic.TcCoe Idealize.SL.Sem Idealize.ShloMosaic.ValueIdx
open Idealize.ShloMosaic.Pipeline (Dat)
open Cert.KernelIdeal Cert.KernelIdeal.Gen Cert.Rbf Cert.Rbf.Blocks Cert.Rbf.Invariant

variable (m : (ℓ : Loc nD τ sig) → Buf (Elt Ideal) ℓ) (ρ : Dev nD → PrngReg)

/-- The kernel's result array: at row r, the sum of all 4096 centres' contributions. -/
def kout (c : Dev nD) : S4096x1.Idx → EReal :=
  fun i => psum (dataX m c) (centC m c) (widB m c) (wgtW m c) (i 0).val 4096

/-- What a write-back writes is the block of kout at that point. -/
theorem flushed_eq (c : Dev nD) (t : Fin cfg0.N) (hf : (cfg0.win 5).flush t = true) :
    (dats m 0 c).flushed 5 t = ((cfg0.win 5).blk t).view.read (Elt Ideal) (kout m c) := by
  have h7 : t.val % 8 = 7 := (flush0_5 t).mp hf
  show (cfg0.win 5).cut (grid0.coords t) ((dats m 0 c).after 5 t) = _
  rw [after0_5]
  funext j
  obtain ⟨p, u, rfl⟩ : ∃ (p : Fin 2048) (u : Fin 1), j = ix2 p u := ⟨j 0, j 1, eq_ix2 j⟩
  show (outsAt0 m c t.val t.isLt).1 (ix2 p u) = kout m c (((cfg0.win 5).blk t).view.emb (ix2 p u))
  rw [(inv m c t.val t.isLt).2.2.2 h7 p u]
  unfold kout
  congr 1
  show _ = win0_5.index t 0 * 2048 + 1 * p.val
  rw [(idx5 t).1]
  omega

theorem mem_blk (t : Fin cfg0.N) (i : S4096x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v5).slice (win0_5.rect t)).set ↔ _
  rw [View.set_slice_whole, Rect.mem_set_unit]
  exact Iff.rfl

/-- The two write-backs cover every row: row r lies in the block written at the last step of data block r / 2048. -/
theorem cover (i : S4096x1.Idx) : ∃ t : Fin cfg0.N, (cfg0.win 5).flush t = true ∧ i ∈ ((cfg0.win 5).blk t).view.set := by
  have hi0 : (i 0).val < 4096 := idx2_lt0 i
  have hi1 : (i 1).val < 1 := idx2_lt1 i
  have hN : cfg0.N = 16 := N_0
  refine ⟨⟨8 * ((i 0).val / 2048) + 7, by rw [hN]; omega⟩, (flush0_5 _).mpr (by dsimp only; omega), ?_⟩
  rw [mem_blk]
  intro a
  have e := idx5 ⟨8 * ((i 0).val / 2048) + 7, by rw [hN]; omega⟩
  match a with
  | ⟨0, _⟩ =>
    show win0_5.index _ 0 * 2048 ≤ (i 0).val ∧ (i 0).val < win0_5.index _ 0 * 2048 + 2048
    rw [e.1]; dsimp only; omega
  | ⟨1, _⟩ =>
    show win0_5.index _ 1 * 1 ≤ (i 1).val ∧ (i 1).val < win0_5.index _ 1 * 1 + 1
    rw [e.2]; omega

/-- So the kernel's result array after the run is kout. -/
theorem final (c : Dev nD) : (dats m 0 c).arrAt 5 cfg0.N = kout m c :=
  (dats m 0 c).arrAt_eq_of_cover 5 (kout m c) (flushed_eq m c) (cover)

/-- The bias broadcast down the rows reads, at every row, the bias. -/
theorem bias_apply (b : S1.Idx → EReal) (i : S4096x1.Idx) :
    broadcastInDim S4096x1 ![0, 1] bcast_S1x1_S4096x1_0_1 (broadcastInDim S1x1 ![1] bcast_S1_S1x1_1 b) i = ent1 b 0 := by
  rw [broadcastInDim_apply _ bcast_S1x1_S4096x1_0_1 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  rw [broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])]
  exact (ent1_ix1 b 0).symm

/-- The program's result: the kernel's array plus the bias, row by row. -/
def kres (c : Dev nD) : S4096x1.Idx → EReal :=
  fun i => psum (dataX m c) (centC m c) (widB m c) (wgtW m c) (i 0).val 4096
    + ent1 (m ((c : Thread nD τ).loc main_arg4) : S1.Idx → EReal) 0

/-- The host's last operations leave the result array at kres. -/
theorem tail_value (c : Dev nD) :
    Pipeline.afterTail₀ cfgs (dats m) 0 (V0 m) [hostOps1] c main_v8 = kres m c := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v5) = kout m c from
      (Pipeline.withArrays_arr spec0 launch0.win.arr_inj c _ _ 5).trans (final m c),
    Pipeline.withArrays_of_ne _ c (V0 m c) _ main_arg4 (by exact (by decide : ∀ w, Pipeline.arrRef spec0 w ≠ main_arg4))]
  funext i
  show kout m c i + _ = _
  rw [show V0 m c (Proc.devRef .tc main_arg4) = m ((c : Thread nD τ).loc main_arg4) from V_main_arg4 m c]
  unfold kres kout
  exact congrArg (_ + ·) (bias_apply _ i)

/-- The idealized kernel program's run: it terminates with the result array at kres and the arguments unchanged. -/
theorem run : θ_run defs (onTc (τ := τ) (main (F := Ideal))) ⟨m, fun _ => 0, ρ⟩ (fun r => ∀ c : Dev nD,
      r.2.mem ((c.tc : Thread nD τ).loc main_v8) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v8 (Pipeline.mem_restRefs_of main_v8 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c))⟩)
    (run_main m ρ)

end Cert.Rbf.Final

end
-- ==== Proof.lean ====
/-
  The radial-basis network layer: a Pallas kernel against its jnp reference, equal over the extended reals.

  Both programs compute, for every data row r, the sum over 4096 centres c of
      mask(exp(-beta_c * sqrt(max(|x_r|^2 + |c_c|^2 - 2 <x_r, c_c>, 0)))) * W_c,   plus the bias,
  where mask replaces an infinite value by zero. The reference forms the whole 4096 x 4096 matrix of hidden units and
  contracts it with W. The kernel walks a 2 x 8 grid: for each block of 2048 data rows it caches the rows and their
  squared norms at the first of 8 steps, and at each step adds to an accumulator the contributions of a block of 512
  centres, in two halves of 256; after the eighth step the accumulator is written out. The two results agree because
  a sum of extended reals may be taken in any grouping (addition is associative and commutative, also with
  infinities), a change of float format is the identity at exact arithmetic, 0 - beta is -beta, and the zero word the
  reductions start from is the real zero. No finiteness of the inputs is needed.

  Modules: Spec (the function and the blocked sum), RefSide (the reference is that function), Pieces (what one body
  run leaves in the carried buffers), Payload and StepValue (the accumulator update entry by entry), Blocks (the
  windows' blocks read off the arrays), Invariant (the buffers after every grid point), Final (the result array and
  the host's last addition).
-/
import proofs.«149360_j11081015623693_2_alg».proof.Defs
import proofs.«149360_j11081015623693_2_alg».proof.Proof.Gen.Kernel
import proofs.«149360_j11081015623693_2_alg».proof.Proof.Gen.Kernel.Skeleton
import proofs.«149360_j11081015623693_2_alg».proof.Proof.Gen.Kernel.Launch
import proofs.«149360_j11081015623693_2_alg».proof.Proof.Gen.Kernel.Points
import proofs.«149360_j11081015623693_2_alg».proof.Proof.Gen.Kernel.Frame
import proofs.«149360_j11081015623693_2_alg».proof.Proof.Gen.KernelIdeal
import proofs.«149360_j11081015623693_2_alg».proof.Proof.Gen.KernelIdeal.Skeleton
import proofs.«149360_j11081015623693_2_alg».proof.Proof.Gen.KernelIdeal.Launch
import proofs.«149360_j11081015623693_2_alg».proof.Proof.Gen.KernelIdeal.Points
import proofs.«149360_j11081015623693_2_alg».proof.Proof.Gen.KernelIdeal.Frame
import proofs.«149360_j11081015623693_2_alg».proof.Proof.Gen.ReferenceIdeal
import proofs.«149360_j11081015623693_2_alg».proof.Proof.Gen.ReferenceIdeal.Run
import proofs.«149360_j11081015623693_2_alg».proof.Proof.Gen.ReferenceIdeal.Read
import proofs.«149360_j11081015623693_2_alg».proof.Proof.Gen.Pre_finite_inputs
import proofs.«149360_j11081015623693_2_alg».proof.Proof.RefSide
import proofs.«149360_j11081015623693_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the same function of the arguments: the row-by-row sum over the
    centres plus the bias. -/
theorem algebraic : Cert.algebraic_KernelIdeal_ReferenceIdeal := by
  intro m ρ m' ρ' _ hagree
  refine ⟨fun c => Cert.Rbf.Final.kres m c, Cert.Rbf.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Rbf.Ref.result_eq, (hagree c).1, (hagree c).2.1, (hagree c).2.2.1,
    (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
